-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43_1)) (v1 : (c : Dev Cert.KernelIdeal.nD) → Buf (Elt Ideal) ((c.tc : Thread Cert.KernelIdeal.nD Cert.KernelIdeal.τ).loc Cert.KernelIdeal.main_v43_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_1) = v0 c
          ∧ r.2.mem ((c.tc : Thread Cert.KernelIdeal.nD Cert.KernelIdeal.τ).loc Cert.KernelIdeal.main_v43_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg8 : FVec F S128x64 .f32) (main_arg9 : FVec F S128 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S64x128 .f32) (main_arg6 : FVec F S64 .f32) (main_arg7 : FVec F S64x128 .f32) (main_arg8 : FVec F S128x64 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) (main_arg8 : FVec F S128x64 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S10000x128 : Shape := ⟨2, ![10000, 128]⟩
abbrev S1x128 : Shape := ⟨2, ![1, 128]⟩
abbrev S100000x64 : Shape := ⟨2, ![100000, 64]⟩
abbrev S10000x64 : Shape := ⟨2, ![10000, 64]⟩
abbrev S1x64 : Shape := ⟨2, ![1, 64]⟩

abbrev nBuf : Space → Nat
  | .hbm => 65
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S128x64, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S128x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S128x64, .f32⟩
  | .hbm, ⟨61, _⟩ => ⟨S128x64, .f32⟩
  | .hbm, ⟨62, _⟩ => ⟨S64x128, .f32⟩
  | .hbm, ⟨63, _⟩ => ⟨S100000x64, .f32⟩
  | .hbm, ⟨64, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x64, .f32⟩
  | .local _ .vmem, ⟨14, _⟩ => ⟨S64, .f32⟩
  | .local _ .vmem, ⟨15, _⟩ => ⟨S128x64, .f32⟩
  | .local _ .vmem, ⟨16, _⟩ => ⟨S64x128, .f32⟩
  | .local _ .vmem, ⟨17, _⟩ => ⟨S128, .f32⟩
  | .local _ .vmem, ⟨18, _⟩ => ⟨S10000x64, .f32⟩
  | .local _ .vmem, ⟨19, _⟩ => ⟨S10000x64, .f32⟩
  | .local _ .vmem, ⟨20, _⟩ => ⟨S10000x128, .f32⟩
  | .local _ .vmem, ⟨21, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43_0 : Ref sig .tc := ⟨.hbm, 63, rfl⟩
abbrev main_v43_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S10000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  transposes_S64x128_S128x64_1_0 : S64x128.Transposes [1, 0] S128x64
  transposes_S128x64_S64x128_1_0 : S128x64.Transposes [1, 0] S64x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  dot_S10000x64_S64x128_S10000x128_1_0_0_1_n_n_wf : DotDims.WF S10000x64 S64x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S10000x128.size a ≤ S100000x128.size a
  hwx1_8 : ∀ i : grid1.Coords, EltTy.bits .f32 = 32 ∨ (Rect.block (s := S100000x128) S10000x128.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

abbrev win0_0 : Pipeline.Window sig grid0 :=
  Pipeline.Window.ofSpec (Memref.whole main_v24) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43_0) S10000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v43_1) S10000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S128x64, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S128x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S128x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S128x64, .f32⟩
  | .hbm, ⟨74, _⟩ => ⟨S100000x64, .f32⟩
  | .hbm, ⟨75, _⟩ => ⟨S100000x64, .f32⟩
  | .hbm, ⟨76, _⟩ => ⟨S64x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S128x64_S64x128_1_0 : S128x64.Transposes [1, 0] S64x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x128_S100000x128_1_0_0_1_n_n_wf : DotDims.WF S100000x64 S64x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KernelRun.lean ====
/-
  The idealized kernel program run from the launch to the return, with its two result arrays NAMED.

  The program is four stretches: host operations (the neighbour gather, the scatter-add into the
  destination rows, the division by the clamped in-degree, two weight transposes), the first dense
  layer as a grid of ten row blocks, host operations again (the same mean aggregation applied to the
  first layer's output, three transposes), and the second dense layer with the decoder as a second grid
  of ten row blocks.  The contents of every buffer at the boundary between two stretches is a fold
  from the launch memory: `W1` after the first host stretch, `W2` with the first grid's output array
  at what its ten write-backs leave, `W3` after the second host stretch, `W4` with the second grid's
  two output arrays at what its write-backs leave.

  Every weakly fair execution terminates without a fault, and in its final state each buffer that
  lives for the whole program holds its `W4` contents.  Stated here for the two result buffers (the
  reconstruction and the latent code) beside the ten argument arrays, which end as launched.
-/
import proofs.«102457_j12575664242837_1_alg».proof.Proof.Gen.KernelIdeal.Frame

set_option maxRecDepth 16384

noncomputable section

namespace Cert.KernelIdeal.OutRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the results named: the final state holds, at the reconstruction's buffer and at the
    latent code's buffer, the last boundary's contents `W4`; the argument arrays are as launched. -/
theorem run_named : θ_run defs (onTc (τ := τ) (main (F := F))) ⟨m, fun _ => 0, ρ⟩ (fun r => ∀ c : Dev nD,
      r.2.mem ((c.tc : Thread nD τ).loc main_v43_1) = W4 m ρ c (Proc.devRef .tc main_v43_1)
      ∧ r.2.mem ((c.tc : Thread nD τ).loc main_v43_0) = W4 m ρ c (Proc.devRef .tc main_v43_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43_1 (by decide)),
       h c _ (mem_uc main_v43_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.OutRun

end
-- ==== Proof.KernelBody.lean ====
/-
  What each grid step of the two dense-layer kernels computes, entry by entry, over the extended reals.

  A step of the first kernel holds a block of 10000 rows of the aggregated neighbour features `a` and of the
  node features `x`, the two (already transposed) weight matrices `wl`, `wr` and the bias `b`, and stores
      max ( (Σₖ a[p,k]·wl[k,q] + b[q]) + Σₖ x[p,k]·wr[k,q] , 0 )
  at row `p`, column `q` of its output block: the roundings to bf16 on the way into the products are the identity
  on extended reals, a product accumulated into a zero matrix is the plain sum, and the bias row is repeated down
  the rows.  A step of the second kernel stores the same expression without the maximum (the latent code `z`), and
  beside it  Σⱼ z[p,j]·wd[j,q] + bd[q]  (the reconstruction).
-/
import proofs.«102457_j12575664242837_1_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The three matrix products, read at an entry -/

theorem mm_128_128_l0 (i : S10000x128.Idx) (c : dot_S10000x128_S128x128_S10000x128_1_0_0_1_n_n.contr.Idx) : (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mm_128_128_r1 (i : S10000x128.Idx) (c : dot_S10000x128_S128x128_S10000x128_1_0_0_1_n_n.contr.Idx) : (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- Row `p`, column `q` of a [10000, 128] × [128, 128] product accumulated into zeros is the sum over the
    128 contracted positions of the left factor's row entry times the right factor's column entry. -/
theorem mm_128_128 {φ₁ φ₂ : FTy} (l : FVec Ideal S10000x128 φ₁) (r : FVec Ideal S128x128 φ₂) (p : Fin 10000) (q : Fin 128) :
    matmul dot_S10000x128_S128x128_S10000x128_1_0_0_1_n_n none l r (constant S10000x128 .f32 0x00000000#32) (ix2 p q)
      = ∑ k : Fin 128, l (ix2 p k) * r (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact mm_128_128_l0 _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact mm_128_128_r1 _ _)
  rw [el, er]

theorem mm_128_64_l0 (i : S10000x64.Idx) (c : dot_S10000x128_S128x64_S10000x64_1_0_0_1_n_n.contr.Idx) : (dot_S10000x128_S128x64_S10000x64_1_0_0_1_n_n.lhsIdx i c 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem mm_128_64_r1 (i : S10000x64.Idx) (c : dot_S10000x128_S128x64_S10000x64_1_0_0_1_n_n.contr.Idx) : (dot_S10000x128_S128x64_S10000x64_1_0_0_1_n_n.rhsIdx i c 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
/-- Row `p`, column `q` of a [10000, 128] × [128, 64] product accumulated into zeros is the sum over the
    128 contracted positions of the left factor's row entry times the right factor's column entry. -/
theorem mm_128_64 {φ₁ φ₂ : FTy} (l : FVec Ideal S10000x128 φ₁) (r : FVec Ideal S128x64 φ₂) (p : Fin 10000) (q : Fin 64) :
    matmul dot_S10000x128_S128x64_S10000x64_1_0_0_1_n_n none l r (constant S10000x64 .f32 0x00000000#32) (ix2 p q)
      = ∑ k : Fin 128, l (ix2 p k) * r (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact mm_128_64_l0 _ _
    | ⟨1, _⟩ => exact (dot_S10000x128_S128x64_S10000x64_1_0_0_1_n_n.lhsIdx_val_of_single rfl _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (dot_S10000x128_S128x64_S10000x64_1_0_0_1_n_n.rhsIdx_val_of_single rfl _ _).trans hk
    | ⟨1, _⟩ => exact mm_128_64_r1 _ _)
  rw [el, er]

theorem mm_64_128_l0 (i : S10000x128.Idx) (c : dot_S10000x64_S64x128_S10000x128_1_0_0_1_n_n.contr.Idx) : (dot_S10000x64_S64x128_S10000x128_1_0_0_1_n_n.lhsIdx i c 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem mm_64_128_r1 (i : S10000x128.Idx) (c : dot_S10000x64_S64x128_S10000x128_1_0_0_1_n_n.contr.Idx) : (dot_S10000x64_S64x128_S10000x128_1_0_0_1_n_n.rhsIdx i c 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl
/-- Row `p`, column `q` of a [10000, 64] × [64, 128] product accumulated into zeros is the sum over the
    64 contracted positions of the left factor's row entry times the right factor's column entry. -/
theorem mm_64_128 {φ₁ φ₂ : FTy} (l : FVec Ideal S10000x64 φ₁) (r : FVec Ideal S64x128 φ₂) (p : Fin 10000) (q : Fin 128) :
    matmul dot_S10000x64_S64x128_S10000x128_1_0_0_1_n_n none l r (constant S10000x128 .f32 0x00000000#32) (ix2 p q)
      = ∑ k : Fin 64, l (ix2 p k) * r (ix2 k q) := by
  simp only [matmul]
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p q) ((contrEquiv1 dot_S10000x64_S64x128_S10000x128_1_0_0_1_n_n 64 rfl rfl).symm k) = ix2 p k := funext fun a => Fin.ext (by
    match a with
    | ⟨0, _⟩ => exact mm_64_128_l0 _ _
    | ⟨1, _⟩ => exact (dot_S10000x64_S64x128_S10000x128_1_0_0_1_n_n.lhsIdx_val_of_single rfl _ _).trans hk)
  have er : dot_S10000x64_S64x128_S10000x128_1_0_0_1_n_n.rhsIdx (ix2 p q) ((contrEquiv1 dot_S10000x64_S64x128_S10000x128_1_0_0_1_n_n 64 rfl rfl).symm k) = ix2 k q := funext fun a => Fin.ext (by
    match a with
    | ⟨0, _⟩ => exact (dot_S10000x64_S64x128_S10000x128_1_0_0_1_n_n.rhsIdx_val_of_single rfl _ _).trans hk
    | ⟨1, _⟩ => exact mm_64_128_r1 _ _)
  rw [el, er]

/-! ## The bias row repeated down the rows -/

/-- A length-128 vector viewed as one row and repeated down 10000 rows reads, at `(p, q)`, its entry `q`. -/
theorem bias_128 (b : Vec Ideal S128 .f32) (p : Fin 10000) (q : Fin 128) :
    broadcastTo S10000x128 (shapeCast S1x128 b shapeCasts_S128_S1x128) broadcasts_S1x128_S10000x128 (ix2 p q) = b (ix1 q) :=
  (broadcastTo_1b_ab_apply _ broadcasts_S1x128_S10000x128 p q).trans (shapeCast_a_1a_apply b shapeCasts_S128_S1x128 0 q)

/-- A length-64 vector viewed as one row and repeated down 10000 rows reads, at `(p, q)`, its entry `q`. -/
theorem bias_64 (b : Vec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ broadcasts_S1x64_S10000x64 p q).trans (shapeCast_a_1a_apply b shapeCasts_S64_S1x64 0 q)

/-! ## The stored values, entry by entry -/

/-- The first kernel's stored block at `(p, q)`. -/
theorem layer1_at (a x : Vec Ideal S10000x128 .f32) (wl wr : Vec Ideal S128x128 .f32) (b : Vec Ideal S128 .f32)
    (p : Fin 10000) (q : Fin 128) :
    k0_pay1 (F := Ideal) a x wl wr b (ix2 p q)
      = max (((∑ k : Fin 128, a (ix2 p k) * wl (ix2 k q)) + b (ix1 q)) + ∑ k : Fin 128, x (ix2 p k) * wr (ix2 k q))
          (Ideal.ofBits .f32 0x00000000#32) := by
  unfold k0_pay1
  simp only [shapeCast_self]
  rw [maximumf_apply, addf_apply, addf_apply, mm_128_128, mm_128_128, bias_128]
  rfl

/-- The second kernel's first stored block (the latent code) at `(p, q)`. -/
theorem latent_at (a h : Vec Ideal S10000x128 .f32) (wl wr : Vec Ideal S128x64 .f32) (b : Vec Ideal S64 .f32)
    (p : Fin 10000) (q : Fin 64) :
    k1_pay1 (F := Ideal) a h wl wr b (ix2 p q)
      = ((∑ k : Fin 128, a (ix2 p k) * wl (ix2 k q)) + b (ix1 q)) + ∑ k : Fin 128, h (ix2 p k) * wr (ix2 k q) := by
  unfold k1_pay1
  simp only [shapeCast_self]
  rw [addf_apply, addf_apply, mm_128_64, mm_128_64, bias_64]
  rfl

/-- The second kernel's second stored block (the reconstruction) at `(p, q)`: the decoder applied to the latent
    block just computed. -/
theorem recon_at (a h : Vec Ideal S10000x128 .f32) (wl wr : Vec Ideal S128x64 .f32) (b : Vec Ideal S64 .f32)
    (wd : Vec Ideal S64x128 .f32) (bd : Vec Ideal S128 .f32) (p : Fin 10000) (q : Fin 128) :
    k1_pay2 (F := Ideal) a h wl wr b wd bd (ix2 p q)
      = (∑ j : Fin 64, k1_pay1 (F := Ideal) a h wl wr b (ix2 p j) * wd (ix2 j q)) + bd (ix1 q) := by
  unfold k1_pay2
  simp only [shapeCast_self]
  rw [addf_apply, mm_64_128, bias_128]
  rfl

end Cert.KernelIdeal.Body

end
-- ==== Proof.LibDenseRows.lean ====
/-
  The mathematics both programs compute, stated once over the extended reals and over no program.

  A GraphSAGE layer sends a matrix `a` of aggregated neighbour features and a matrix `x` of node features
  (one row per node) to
      conv a x wl b wr [p, q] = (Σₖ a[p,k]·wl[k,q] + b[q]) + Σₖ x[p,k]·wr[k,q],
  the decoder sends the latent code `z` to  dec z w b [p, q] = Σⱼ z[p,j]·w[j,q] + b[q],  and `relu` is the maximum
  with zero (the zero kept as the float word both programs print, so that it is never evaluated).

  Row `p` of each result depends on row `p` of the row-indexed operands only.  That is what lets a grid of row
  blocks compute the whole result: `conv_rows` and `dec_rows` say that the layer applied to a block of rows is
  the layer's rows at the block's position.
-/
import Idealize.ShloMosaic.PureOps.Ideal
import Idealize.ShloMosaic.Lib.ValueIdx

noncomputable section

namespace Cert.Sage

open Idealize.ShloMosaic Idealize.ShloMosaic.ValueIdx
open scoped BigOperators

/-- A matrix of extended reals with `r` rows and `c` columns, indexed as the programs index their arrays. -/
abbrev Mat (r c : ℕ) := (⟨2, ![r, c]⟩ : Shape).Idx → EReal
/-- A vector of extended reals of length `n`. -/
abbrev Row (n : ℕ) := (⟨1, ![n]⟩ : Shape).Idx → EReal

/-- One SAGE layer before its nonlinearity: `(a·wl + b) + x·wr`, entry by entry, the bias added between the
    two products as both programs add it. -/
def conv {R K D : ℕ} (a x : Mat R K) (wl : Mat K D) (b : Row D) (wr : Mat K D) : Mat R D :=
  fun i => ((∑ k : Fin K, a (ix2 (i 0) k) * wl (ix2 k (i 1))) + b (ix1 (i 1)))
    + ∑ k : Fin K, x (ix2 (i 0) k) * wr (ix2 k (i 1))

/-- The maximum with the float zero, entry by entry. -/
def relu {R D : ℕ} (h : Mat R D) : Mat R D := fun i => max (h i) (Ideal.ofBits .f32 0x00000000#32)

/-- The linear decoder: `z·w + b`, entry by entry. -/
def dec {R K D : ℕ} (z : Mat R K) (w : Mat K D) (b : Row D) : Mat R D :=
  fun i => (∑ j : Fin K, z (ix2 (i 0) j) * w (ix2 j (i 1))) + b (ix1 (i 1))

/-- ROW LOCALITY of a layer: if row `y 0` of the small operands `A`, `X` is row `i 0` of the large ones and the
    two indices name the same column, the layer of the small operands at `y` is the layer of the large ones at `i`. -/
theorem conv_rows {R B K D : ℕ} (a x : Mat R K) (A X : Mat B K) (wl : Mat K D) (b : Row D) (wr : Mat K D)
    (y : (⟨2, ![B, D]⟩ : Shape).Idx) (i : (⟨2, ![R, D]⟩ : Shape).Idx) (hc : y 1 = i 1)
    (hA : ∀ k : Fin K, A (ix2 (y 0) k) = a (ix2 (i 0) k)) (hX : ∀ k : Fin K, X (ix2 (y 0) k) = x (ix2 (i 0) k)) :
    conv A X wl b wr y = conv a x wl b wr i := by
  unfold conv
  rw [hc]
  simp only [hA, hX]

/-- ROW LOCALITY of the decoder. -/
theorem dec_rows {R B K D : ℕ} (z : Mat R K) (Z : Mat B K) (w : Mat K D) (b : Row D)
    (y : (⟨2, ![B, D]⟩ : Shape).Idx) (i : (⟨2, ![R, D]⟩ : Shape).Idx) (hc : y 1 = i 1)
    (hZ : ∀ j : Fin K, Z (ix2 (y 0) j) = z (ix2 (i 0) j)) :
    dec Z w b y = dec z w b i := by
  unfold dec
  rw [hc]
  simp only [hZ]

end Cert.Sage

end
-- ==== Proof.Layer1.lean ====
/-
  The first dense layer's output array, as one function of the arrays the grid finds when it starts.

  The grid has ten steps.  Step `t` fetches rows 10000·t … 10000·t + 9999 of the aggregated features and of the
  node features, has the two weight matrices and the bias whole, and writes rows 10000·t … of the output.  By row
  locality the block a step writes back is the same rows of  relu (conv a x wl b wr)  of the WHOLE arrays, and
  the ten blocks tile the 100000 rows, so after the grid the output array is that function everywhere.
  Stated for any contents `V` the grid may be entered with.
-/
import proofs.«102457_j12575664242837_1_alg».proof.Proof.Gen.KernelIdeal.Frame
import proofs.«102457_j12575664242837_1_alg».proof.Proof.KernelBody
import proofs.«102457_j12575664242837_1_alg».proof.Proof.LibDenseRows
import Idealize.ShloMosaic.Lib.Pipeline.Value

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer of the whole arrays as the grid finds them. -/
def out (c : Dev nD) : S100000x128.Idx → EReal :=
  Sage.relu (Sage.conv (R := 100000) (K := 128) (D := 128)
    (V c main_v24) (V c main_arg0) (V c main_v25) (V c main_arg3) (V c main_v26))

/-- Where each window's block sits at step `t`: the three row-blocked windows at block row `t`, the weights
    and the bias at the origin (decided over the ten steps). -/
theorem where_blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The stored block is the layer of the loaded blocks. -/
theorem stored_eq (a x : Vec Ideal S10000x128 .f32) (wl wr : Vec Ideal S128x128 .f32) (b : Vec Ideal S128 .f32) :
    k0_pay1 (F := Ideal) a x wl wr b = Sage.relu (Sage.conv (R := 10000) (K := 128) (D := 128) a x wl b wr) := by
  funext y
  obtain ⟨p, q, rfl⟩ : ∃ (p : Fin 10000) (q : Fin 128), y = ix2 p q := ⟨y 0, y 1, eq_ix2 y⟩
  rw [Body.layer1_at]
  rfl

/-- WHAT STEP `t` WRITES BACK is block `t` of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz2]
  simp only [View.ld_unit_zero (S := S10000x128) hz2, View.ld_unit_zero (S := S128x128) hz2, View.ld_unit_zero (S := S128) hz1]
  rw [stored_eq]
  obtain ⟨e00, e01, e10, e11, e20, e21, e30, e40, e41, e50, e51⟩ := where_blocks t
  have hwl : iblk0 V c 2 t = V c main_v25 := by
    funext j
    show V c main_v25 (((cfg0.win 2).blk t).view.emb j) = V c main_v25 j
    refine congrArg _ (funext fun a => Fin.ext ?_)
    match a with
    | ⟨0, _⟩ => show win0_2.index t (0 : Fin 2) * 128 + 1 * (j 0).val = (j 0).val; omega
    | ⟨1, _⟩ => show win0_2.index t (1 : Fin 2) * 128 + 1 * (j 1).val = (j 1).val; omega
  have hwr : iblk0 V c 4 t = V c main_v26 := by
    funext j
    show V c main_v26 (((cfg0.win 4).blk t).view.emb j) = V c main_v26 j
    refine congrArg _ (funext fun a => Fin.ext ?_)
    match a with
    | ⟨0, _⟩ => show win0_4.index t (0 : Fin 2) * 128 + 1 * (j 0).val = (j 0).val; omega
    | ⟨1, _⟩ => show win0_4.index t (1 : Fin 2) * 128 + 1 * (j 1).val = (j 1).val; omega
  have hb : iblk0 V c 3 t = V c main_arg3 := by
    funext j
    show V c main_arg3 (((cfg0.win 3).blk t).view.emb j) = V c main_arg3 j
    refine congrArg _ (funext fun a => Fin.ext ?_)
    match a with
    | ⟨0, _⟩ => show win0_3.index t (0 : Fin 1) * 128 + 1 * (j 0).val = (j 0).val; omega
  rw [hwl, hwr, hb]
  funext y
  show Sage.relu (Sage.conv (R := 10000) (K := 128) (D := 128) (iblk0 V c 0 t) (iblk0 V c 1 t) (V c main_v25) (V c main_arg3) (V c main_v26)) y
    = out V c (((cfg0.win 5).blk t).view.emb y)
  unfold out Sage.relu
  refine congrArg (max · _) ?_
  refine Sage.conv_rows (R := 100000) (B := 10000) (K := 128) (D := 128) _ _ _ _ _ _ _ y (((cfg0.win 5).blk t).view.emb y) ?_ ?_ ?_
  · apply Fin.ext
    show (y 1).val = win0_5.index t (1 : Fin 2) * 128 + 1 * (y 1).val
    omega
  · intro k
    show V c main_v24 (((cfg0.win 0).blk t).view.emb (ix2 (y 0) k)) = V c main_v24 (ix2 ((((cfg0.win 5).blk t).view.emb y) 0) k)
    refine congrArg _ (funext fun a => Fin.ext ?_)
    match a with
    | ⟨0, _⟩ => show win0_0.index t (0 : Fin 2) * 10000 + 1 * (y 0).val = win0_5.index t (0 : Fin 2) * 10000 + 1 * (y 0).val; omega
    | ⟨1, _⟩ => show win0_0.index t (1 : Fin 2) * 128 + 1 * k.val = k.val; omega
  · intro k
    show V c main_arg0 (((cfg0.win 1).blk t).view.emb (ix2 (y 0) k)) = V c main_arg0 (ix2 ((((cfg0.win 5).blk t).view.emb y) 0) k)
    refine congrArg _ (funext fun a => Fin.ext ?_)
    match a with
    | ⟨0, _⟩ => show win0_1.index t (0 : Fin 2) * 10000 + 1 * (y 0).val = win0_5.index t (0 : Fin 2) * 10000 + 1 * (y 0).val; omega
    | ⟨1, _⟩ => show win0_1.index t (1 : Fin 2) * 128 + 1 * k.val = k.val; omega

/-- An index of the output array is in step `t`'s block iff each coordinate is in the block's range on its axis. -/
theorem mem_blk (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v27).slice (win0_5.rect t)).set ↔ _
  rw [View.set_slice_whole, Rect.mem_set_unit]
  exact Iff.rfl

/-- The ten blocks cover the array: row `r` is in the block of step `r / 10000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 10000, by show (i 0).val / 10000 < grid0.N; rw [N_0]; omega⟩
  obtain ⟨e00, e01, e10, e11, e20, e21, e30, e40, e41, e50, e51⟩ := where_blocks t
  have ht : t.val = (i 0).val / 10000 := rfl
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- THE OUTPUT ARRAY after the grid is the layer of the arrays the grid was entered with. -/
theorem final (c : Dev nD) : (dat0 V c).arrAt 5 cfg0.N = out V c :=
  (dat0 V c).arrAt_eq_of_cover 5 (out V c) (fun t _ => flushed_eq V c t) (cover)

end Cert.KernelIdeal.Layer1

end
-- ==== Proof.Layer2.lean ====
/-
  The second dense layer's and the decoder's output arrays, as functions of the arrays the second grid finds.

  Step `t` of the ten fetches rows 10000·t … of the second aggregation `a` and of the first layer's output `h`, has
  the layer's two weight matrices, its bias, the decoder's weights and its bias whole, and writes the same rows of
  the latent code  z = conv a h wl b wr  and of the reconstruction  dec z wd bd.  Both are row-local, so each step
  writes the rows of the whole-array functions at its position, and the ten blocks tile each of the two arrays.
  Stated for any contents `V` the grid may be entered with.
-/
import proofs.«102457_j12575664242837_1_alg».proof.Proof.Gen.KernelIdeal.Frame
import proofs.«102457_j12575664242837_1_alg».proof.Proof.KernelBody
import proofs.«102457_j12575664242837_1_alg».proof.Proof.LibDenseRows
import Idealize.ShloMosaic.Lib.Pipeline.Value

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The latent code of the whole arrays as the grid finds them. -/
def latent (c : Dev nD) : S100000x64.Idx → EReal :=
  Sage.conv (R := 100000) (K := 128) (D := 64) (V c main_v39) (V c main_v27) (V c main_v40) (V c main_arg6) (V c main_v41)

/-- The reconstruction of the whole arrays as the grid finds them. -/
def recon (c : Dev nD) : S100000x128.Idx → EReal :=
  Sage.dec (R := 100000) (K := 64) (D := 128) (latent V c) (V c main_v42) (V c main_arg9)

/-- Where each window's block sits at step `t`: the four row-blocked windows at block row `t`, the weights
    and the biases at the origin (decided over the ten steps). -/
theorem where_blocks : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The first stored block is the layer of the loaded blocks. -/
theorem stored_latent (a h : Vec Ideal S10000x128 .f32) (wl wr : Vec Ideal S128x64 .f32) (b : Vec Ideal S64 .f32) :
    k1_pay1 (F := Ideal) a h wl wr b = Sage.conv (R := 10000) (K := 128) (D := 64) a h wl b wr := by
  funext y
  obtain ⟨p, q, rfl⟩ : ∃ (p : Fin 10000) (q : Fin 64), y = ix2 p q := ⟨y 0, y 1, eq_ix2 y⟩
  rw [Body.latent_at]
  rfl

/-- The second stored block is the decoder of the first. -/
theorem stored_recon (a h : Vec Ideal S10000x128 .f32) (wl wr : Vec Ideal S128x64 .f32) (b : Vec Ideal S64 .f32)
    (wd : Vec Ideal S64x128 .f32) (bd : Vec Ideal S128 .f32) :
    k1_pay2 (F := Ideal) a h wl wr b wd bd
      = Sage.dec (R := 10000) (K := 64) (D := 128) (Sage.conv (R := 10000) (K := 128) (D := 64) a h wl b wr) wd bd := by
  funext y
  obtain ⟨p, q, rfl⟩ : ∃ (p : Fin 10000) (q : Fin 128), y = ix2 p q := ⟨y 0, y 1, eq_ix2 y⟩
  rw [Body.recon_at, stored_latent]
  rfl

/-- WHAT STEP `t` WRITES BACK to the latent code's array is block `t` of `latent`. -/
theorem flushed_latent (c : Dev nD) (t : Fin cfg1.N) :
    (dat1 V c).flushed 7 t = ((cfg1.win 7).blk t).view.read (Elt Ideal) (latent V c) := by
  show (cfg1.win 7).cut (grid1.coords t) ((dat1 V c).after 7 t) = _
  rw [after1_7]
  unfold out1_7
  rw [View.canon_unit_zero hz2]
  simp only [View.ld_unit_zero (S := S10000x128) hz2, View.ld_unit_zero (S := S128x64) hz2, View.ld_unit_zero (S := S64) hz1]
  rw [stored_latent]
  obtain ⟨e00, e01, e10, e11, e20, e21, e30, e40, e41, e50, e51, e60, e70, e71, e80, e81⟩ := where_blocks t
  have hwl : iblk1 V c 2 t = V c main_v40 := by
    funext j
    show V c main_v40 (((cfg1.win 2).blk t).view.emb j) = V c main_v40 j
    refine congrArg _ (funext fun a => Fin.ext ?_)
    match a with
    | ⟨0, _⟩ => show win1_2.index t (0 : Fin 2) * 128 + 1 * (j 0).val = (j 0).val; omega
    | ⟨1, _⟩ => show win1_2.index t (1 : Fin 2) * 64 + 1 * (j 1).val = (j 1).val; omega
  have hb : iblk1 V c 3 t = V c main_arg6 := by
    funext j
    show V c main_arg6 (((cfg1.win 3).blk t).view.emb j) = V c main_arg6 j
    refine congrArg _ (funext fun a => Fin.ext ?_)
    match a with
    | ⟨0, _⟩ => show win1_3.index t (0 : Fin 1) * 64 + 1 * (j 0).val = (j 0).val; omega
  have hwr : iblk1 V c 4 t = V c main_v41 := by
    funext j
    show V c main_v41 (((cfg1.win 4).blk t).view.emb j) = V c main_v41 j
    refine congrArg _ (funext fun a => Fin.ext ?_)
    match a with
    | ⟨0, _⟩ => show win1_4.index t (0 : Fin 2) * 128 + 1 * (j 0).val = (j 0).val; omega
    | ⟨1, _⟩ => show win1_4.index t (1 : Fin 2) * 64 + 1 * (j 1).val = (j 1).val; omega
  rw [hwl, hwr, hb]
  funext y
  show Sage.conv (R := 10000) (K := 128) (D := 64) (iblk1 V c 0 t) (iblk1 V c 1 t) (V c main_v40) (V c main_arg6) (V c main_v41) y
    = latent V c (((cfg1.win 7).blk t).view.emb y)
  unfold latent
  refine Sage.conv_rows (R := 100000) (B := 10000) (K := 128) (D := 64) _ _ _ _ _ _ _ y (((cfg1.win 7).blk t).view.emb y) ?_ ?_ ?_
  · apply Fin.ext
    show (y 1).val = win1_7.index t (1 : Fin 2) * 64 + 1 * (y 1).val
    omega
  · intro k
    show V c main_v39 (((cfg1.win 0).blk t).view.emb (ix2 (y 0) k)) = V c main_v39 (ix2 ((((cfg1.win 7).blk t).view.emb y) 0) k)
    refine congrArg _ (funext fun a => Fin.ext ?_)
    match a with
    | ⟨0, _⟩ => show win1_0.index t (0 : Fin 2) * 10000 + 1 * (y 0).val = win1_7.index t (0 : Fin 2) * 10000 + 1 * (y 0).val; omega
    | ⟨1, _⟩ => show win1_0.index t (1 : Fin 2) * 128 + 1 * k.val = k.val; omega
  · intro k
    show V c main_v27 (((cfg1.win 1).blk t).view.emb (ix2 (y 0) k)) = V c main_v27 (ix2 ((((cfg1.win 7).blk t).view.emb y) 0) k)
    refine congrArg _ (funext fun a => Fin.ext ?_)
    match a with
    | ⟨0, _⟩ => show win1_1.index t (0 : Fin 2) * 10000 + 1 * (y 0).val = win1_7.index t (0 : Fin 2) * 10000 + 1 * (y 0).val; omega
    | ⟨1, _⟩ => show win1_1.index t (1 : Fin 2) * 128 + 1 * k.val = k.val; omega

/-- WHAT STEP `t` WRITES BACK to the reconstruction's array is block `t` of `recon`. -/
theorem flushed_recon (c : Dev nD) (t : Fin cfg1.N) :
    (dat1 V c).flushed 8 t = ((cfg1.win 8).blk t).view.read (Elt Ideal) (recon V c) := by
  show (cfg1.win 8).cut (grid1.coords t) ((dat1 V c).after 8 t) = _
  rw [after1_8]
  unfold out1_8
  rw [View.canon_unit_zero hz2]
  simp only [View.ld_unit_zero (S := S10000x128) hz2, View.ld_unit_zero (S := S128x64) hz2, View.ld_unit_zero (S := S64) hz1,
    View.ld_unit_zero (S := S64x128) hz2, View.ld_unit_zero (S := S128) hz1]
  rw [stored_recon]
  obtain ⟨e00, e01, e10, e11, e20, e21, e30, e40, e41, e50, e51, e60, e70, e71, e80, e81⟩ := where_blocks t
  have hwl : iblk1 V c 2 t = V c main_v40 := by
    funext j
    show V c main_v40 (((cfg1.win 2).blk t).view.emb j) = V c main_v40 j
    refine congrArg _ (funext fun a => Fin.ext ?_)
    match a with
    | ⟨0, _⟩ => show win1_2.index t (0 : Fin 2) * 128 + 1 * (j 0).val = (j 0).val; omega
    | ⟨1, _⟩ => show win1_2.index t (1 : Fin 2) * 64 + 1 * (j 1).val = (j 1).val; omega
  have hb : iblk1 V c 3 t = V c main_arg6 := by
    funext j
    show V c main_arg6 (((cfg1.win 3).blk t).view.emb j) = V c main_arg6 j
    refine congrArg _ (funext fun a => Fin.ext ?_)
    match a with
    | ⟨0, _⟩ => show win1_3.index t (0 : Fin 1) * 64 + 1 * (j 0).val = (j 0).val; omega
  have hwr : iblk1 V c 4 t = V c main_v41 := by
    funext j
    show V c main_v41 (((cfg1.win 4).blk t).view.emb j) = V c main_v41 j
    refine congrArg _ (funext fun a => Fin.ext ?_)
    match a with
    | ⟨0, _⟩ => show win1_4.index t (0 : Fin 2) * 128 + 1 * (j 0).val = (j 0).val; omega
    | ⟨1, _⟩ => show win1_4.index t (1 : Fin 2) * 64 + 1 * (j 1).val = (j 1).val; omega
  have hwd : iblk1 V c 5 t = V c main_v42 := by
    funext j
    show V c main_v42 (((cfg1.win 5).blk t).view.emb j) = V c main_v42 j
    refine congrArg _ (funext fun a => Fin.ext ?_)
    match a with
    | ⟨0, _⟩ => show win1_5.index t (0 : Fin 2) * 64 + 1 * (j 0).val = (j 0).val; omega
    | ⟨1, _⟩ => show win1_5.index t (1 : Fin 2) * 128 + 1 * (j 1).val = (j 1).val; omega
  have hbd : iblk1 V c 6 t = V c main_arg9 := by
    funext j
    show V c main_arg9 (((cfg1.win 6).blk t).view.emb j) = V c main_arg9 j
    refine congrArg _ (funext fun a => Fin.ext ?_)
    match a with
    | ⟨0, _⟩ => show win1_6.index t (0 : Fin 1) * 128 + 1 * (j 0).val = (j 0).val; omega
  rw [hwl, hwr, hb, hwd, hbd]
  funext y
  show Sage.dec (R := 10000) (K := 64) (D := 128)
      (Sage.conv (R := 10000) (K := 128) (D := 64) (iblk1 V c 0 t) (iblk1 V c 1 t) (V c main_v40) (V c main_arg6) (V c main_v41))
      (V c main_v42) (V c main_arg9) y
    = recon V c (((cfg1.win 8).blk t).view.emb y)
  unfold recon latent
  refine Sage.dec_rows (R := 100000) (B := 10000) (K := 64) (D := 128) _ _ _ _ y (((cfg1.win 8).blk t).view.emb y) ?_ ?_
  · apply Fin.ext
    show (y 1).val = win1_8.index t (1 : Fin 2) * 128 + 1 * (y 1).val
    omega
  intro j
  refine Sage.conv_rows (R := 100000) (B := 10000) (K := 128) (D := 64) _ _ _ _ _ _ _ (ix2 (y 0) j) (ix2 ((((cfg1.win 8).blk t).view.emb y) 0) j) rfl ?_ ?_
  · intro k
    show V c main_v39 (((cfg1.win 0).blk t).view.emb (ix2 (y 0) k)) = V c main_v39 (ix2 ((((cfg1.win 8).blk t).view.emb y) 0) k)
    refine congrArg _ (funext fun a => Fin.ext ?_)
    match a with
    | ⟨0, _⟩ => show win1_0.index t (0 : Fin 2) * 10000 + 1 * (y 0).val = win1_8.index t (0 : Fin 2) * 10000 + 1 * (y 0).val; omega
    | ⟨1, _⟩ => show win1_0.index t (1 : Fin 2) * 128 + 1 * k.val = k.val; omega
  · intro k
    show V c main_v27 (((cfg1.win 1).blk t).view.emb (ix2 (y 0) k)) = V c main_v27 (ix2 ((((cfg1.win 8).blk t).view.emb y) 0) k)
    refine congrArg _ (funext fun a => Fin.ext ?_)
    match a with
    | ⟨0, _⟩ => show win1_1.index t (0 : Fin 2) * 10000 + 1 * (y 0).val = win1_8.index t (0 : Fin 2) * 10000 + 1 * (y 0).val; omega
    | ⟨1, _⟩ => show win1_1.index t (1 : Fin 2) * 128 + 1 * k.val = k.val; omega

/-- An index of the latent code's array is in step `t`'s block iff each coordinate is in the block's range. -/
theorem mem_latent (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v43_0).slice (win1_7.rect t)).set ↔ _
  rw [View.set_slice_whole, Rect.mem_set_unit]
  exact Iff.rfl

/-- An index of the reconstruction's array is in step `t`'s block iff each coordinate is in the block's range. -/
theorem mem_recon (t : Fin cfg1.N) (i : S100000x128.Idx) :
    i ∈ ((cfg1.win 8).blk t).view.set ↔ ∀ a : Fin 2, win1_8.index t a * S10000x128.size a ≤ (i a).val ∧ (i a).val < win1_8.index t a * S10000x128.size a + S10000x128.size a := by
  show i ∈ ((View.whole main_v43_1).slice (win1_8.rect t)).set ↔ _
  rw [View.set_slice_whole, Rect.mem_set_unit]
  exact Iff.rfl

/-- The ten blocks cover the latent code's array: row `r` is in the block of step `r / 10000`. -/
theorem cover_latent (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  let t : Fin cfg1.N := ⟨(i 0).val / 10000, by show (i 0).val / 10000 < grid1.N; rw [N_1]; omega⟩
  obtain ⟨e00, e01, e10, e11, e20, e21, e30, e40, e41, e50, e51, e60, e70, e71, e80, e81⟩ := where_blocks t
  have ht : t.val = (i 0).val / 10000 := rfl
  refine ⟨t, flush1_7 t, ?_⟩
  rw [mem_latent]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 64 ≤ (i 1).val ∧ (i 1).val < win1_7.index t (1 : Fin 2) * 64 + 64; omega

/-- The ten blocks cover the reconstruction's array. -/
theorem cover_recon (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  let t : Fin cfg1.N := ⟨(i 0).val / 10000, by show (i 0).val / 10000 < grid1.N; rw [N_1]; omega⟩
  obtain ⟨e00, e01, e10, e11, e20, e21, e30, e40, e41, e50, e51, e60, e70, e71, e80, e81⟩ := where_blocks t
  have ht : t.val = (i 0).val / 10000 := rfl
  refine ⟨t, flush1_8 t, ?_⟩
  rw [mem_recon]
  intro a
  match a with
  | ⟨0, _⟩ => show win1_8.index t (0 : Fin 2) * 10000 ≤ (i 0).val ∧ (i 0).val < win1_8.index t (0 : Fin 2) * 10000 + 10000; omega
  | ⟨1, _⟩ => show win1_8.index t (1 : Fin 2) * 128 ≤ (i 1).val ∧ (i 1).val < win1_8.index t (1 : Fin 2) * 128 + 128; omega

/-- THE LATENT CODE'S ARRAY after the grid. -/
theorem final_latent (c : Dev nD) : (dat1 V c).arrAt 7 cfg1.N = latent V c :=
  (dat1 V c).arrAt_eq_of_cover 7 (latent V c) (fun t _ => flushed_latent V c t) cover_latent

/-- THE RECONSTRUCTION'S ARRAY after the grid. -/
theorem final_recon (c : Dev nD) : (dat1 V c).arrAt 8 cfg1.N = recon V c :=
  (dat1 V c).arrAt_eq_of_cover 8 (recon V c) (fun t _ => flushed_recon V c t) cover_recon

end Cert.KernelIdeal.Layer2

end
-- ==== Proof.HostChain.lean ====
/-
  The host operations around the two grids, read buffer by buffer.

  Before the first grid the program gathers the source node's feature row for every edge, adds the rows into
  their destination nodes, divides by the in-degree clamped to one (the mean over in-neighbours), and transposes
  the first layer's two weight matrices.  Between the grids it forms the same mean aggregation of the first
  layer's output and transposes the second layer's and the decoder's weights.  The reference applies the very
  same operations to the very same operands, so each buffer the grids read is stated here as the reference's own
  function (its stage, one per operation) of the buffers the stretch started from: nothing of a gather or a
  scatter is ever opened.  The one function the reference does not name with these operands, the aggregation of
  an arbitrary feature matrix `h` along given edges, is `meanAgg`.
-/
import proofs.«102457_j12575664242837_1_alg».proof.Proof.Gen.KernelIdeal.Launch
import proofs.«102457_j12575664242837_1_alg».proof.Proof.Gen.ReferenceIdeal.Read
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]

/-- The mean over in-neighbours of the rows of `h`: gather the (wrapped) source rows, add them into the
    destination rows of a zero matrix, scale row `n` by `dinv[n]`. -/
def meanAgg (h : (⟨S100000x128, .f32⟩ : BufTy).Contents (Elt F)) (src dst : (⟨S1600000, .i32⟩ : BufTy).Contents (Elt F))
    (dinv : (⟨S100000x1, .f32⟩ : BufTy).Contents (Elt F)) : (⟨S100000x128, .f32⟩ : BufTy).Contents (Elt F) :=
  mulf (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1 dinv)

/-! ## The stretch before the first grid -/

section Before
variable (W : Valuation τ sig (Elt F))

theorem before_agg : after hostOps0 W (Proc.devRef .tc main_v24) = Cert.ReferenceIdeal.Read.val_main_v24 (F := F) (W (Proc.devRef .tc main_arg0)) (W (Proc.devRef .tc main_arg1)) := by
  after_results_simp
  rfl
theorem before_wl : after hostOps0 W (Proc.devRef .tc main_v25) = Cert.ReferenceIdeal.Read.val_main_v25 (F := F) (W (Proc.devRef .tc main_arg2)) := by
  after_results_simp
  rfl
theorem before_wr : after hostOps0 W (Proc.devRef .tc main_v26) = Cert.ReferenceIdeal.Read.val_main_v30 (F := F) (W (Proc.devRef .tc main_arg4)) := by
  after_results_simp
  rfl
theorem before_src : after hostOps0 W (Proc.devRef .tc main_v1) = Cert.ReferenceIdeal.Read.val_main_v1 (F := F) (W (Proc.devRef .tc main_arg1)) := by
  after_results_simp
  rfl
theorem before_dst : after hostOps0 W (Proc.devRef .tc main_v3) = Cert.ReferenceIdeal.Read.val_main_v3 (F := F) (W (Proc.devRef .tc main_arg1)) := by
  after_results_simp
  rfl
theorem before_dinv : after hostOps0 W (Proc.devRef .tc main_v12) = Cert.ReferenceIdeal.Read.val_main_v12 (F := F) (W (Proc.devRef .tc main_arg1)) := by
  after_results_simp
  rfl
theorem before_arg0 : after hostOps0 W (Proc.devRef .tc main_arg0) = W (Proc.devRef .tc main_arg0) := by
  after_results_simp
theorem before_arg3 : after hostOps0 W (Proc.devRef .tc main_arg3) = W (Proc.devRef .tc main_arg3) := by
  after_results_simp
theorem before_arg5 : after hostOps0 W (Proc.devRef .tc main_arg5) = W (Proc.devRef .tc main_arg5) := by
  after_results_simp
theorem before_arg6 : after hostOps0 W (Proc.devRef .tc main_arg6) = W (Proc.devRef .tc main_arg6) := by
  after_results_simp
theorem before_arg7 : after hostOps0 W (Proc.devRef .tc main_arg7) = W (Proc.devRef .tc main_arg7) := by
  after_results_simp
theorem before_arg8 : after hostOps0 W (Proc.devRef .tc main_arg8) = W (Proc.devRef .tc main_arg8) := by
  after_results_simp
theorem before_arg9 : after hostOps0 W (Proc.devRef .tc main_arg9) = W (Proc.devRef .tc main_arg9) := by
  after_results_simp

end Before

/-! ## The stretch between the grids -/

section Between
variable (W : Valuation τ sig (Elt F))

theorem between_agg : after hostOps1 W (Proc.devRef .tc main_v39)
    = meanAgg (F := F) (W (Proc.devRef .tc main_v27)) (W (Proc.devRef .tc main_v1)) (W (Proc.devRef .tc main_v3)) (W (Proc.devRef .tc main_v12)) := by
  after_results_simp
  rfl
theorem between_h : after hostOps1 W (Proc.devRef .tc main_v27) = W (Proc.devRef .tc main_v27) := by
  after_results_simp
theorem between_wl : after hostOps1 W (Proc.devRef .tc main_v40) = Cert.ReferenceIdeal.Read.val_main_v46 (F := F) (W (Proc.devRef .tc main_arg5)) := by
  after_results_simp
  rfl
theorem between_wr : after hostOps1 W (Proc.devRef .tc main_v41) = Cert.ReferenceIdeal.Read.val_main_v51 (F := F) (W (Proc.devRef .tc main_arg7)) := by
  after_results_simp
  rfl
theorem between_wd : after hostOps1 W (Proc.devRef .tc main_v42) = Cert.ReferenceIdeal.Read.val_main_v54 (F := F) (W (Proc.devRef .tc main_arg8)) := by
  after_results_simp
  rfl
theorem between_arg6 : after hostOps1 W (Proc.devRef .tc main_arg6) = W (Proc.devRef .tc main_arg6) := by
  after_results_simp
theorem between_arg9 : after hostOps1 W (Proc.devRef .tc main_arg9) = W (Proc.devRef .tc main_arg9) := by
  after_results_simp

end Between

/-! ## The reference's second aggregation is `meanAgg` of its first layer's output -/

theorem ref_agg2 (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F)) (x4 : (⟨S128x128, .f32⟩ : BufTy).Contents (Elt F)) :
    Cert.ReferenceIdeal.Read.val_main_v45 (F := F) x0 x1 x2 x3 x4
      = meanAgg (F := F) (Cert.ReferenceIdeal.Read.val_main_v33 (F := F) x0 x1 x2 x3 x4) (Cert.ReferenceIdeal.Read.val_main_v1 (F := F) x1) (Cert.ReferenceIdeal.Read.val_main_v3 (F := F) x1) (Cert.ReferenceIdeal.Read.val_main_v12 (F := F) x1) := rfl

end Cert.KernelIdeal.Host

end
-- ==== Proof.RefLayers.lean ====
/-
  The reference's three dense stages are the layer functions of its own earlier stages.

  Read one operation at a time the reference computes, with `A₁` its first mean aggregation,
      h  = max (A₁·W1lᵀ + b1 + x·W1rᵀ, 0),      z = A₂·W2lᵀ + b2 + h·W2rᵀ,      x̂ = z·Wdecᵀ + bdec,
  each product a `dot_general` that is the plain sum over the contracted axis on extended reals, each bias a
  vector repeated down the rows.  So  h = relu (conv A₁ x W1lᵀ b1 W1rᵀ),  z = conv A₂ h W2lᵀ b2 W2rᵀ  and
  x̂ = dec z Wdecᵀ bdec,  with the transposes and aggregations kept as the reference's own stages.
-/
import proofs.«102457_j12575664242837_1_alg».proof.Proof.Gen.ReferenceIdeal.Read
import proofs.«102457_j12575664242837_1_alg».proof.Proof.LibDenseRows

noncomputable section

namespace Cert.ReferenceIdeal.Layers

open Cert.ReferenceIdeal Cert.ReferenceIdeal.Read Idealize.ShloMosaic Idealize.ShloMosaic.ValueIdx
open scoped BigOperators

/-! ## The operand indices of the five products and the three bias rows, by coordinates -/

theorem l26 (i : S100000x128.Idx) (k : Fin 128) : lidx_main_v26 i k = ix2 (i 0) k :=
  funext fun a => Fin.ext (by match a with | ⟨0, _⟩ => rfl | ⟨1, _⟩ => rfl)
theorem r26 (i : S100000x128.Idx) (k : Fin 128) : ridx_main_v26 i k = ix2 k (i 1) :=
  funext fun a => Fin.ext (by match a with | ⟨0, _⟩ => rfl | ⟨1, _⟩ => rfl)
theorem l31 (i : S100000x128.Idx) (k : Fin 128) : lidx_main_v31 i k = ix2 (i 0) k :=
  funext fun a => Fin.ext (by match a with | ⟨0, _⟩ => rfl | ⟨1, _⟩ => rfl)
theorem r31 (i : S100000x128.Idx) (k : Fin 128) : ridx_main_v31 i k = ix2 k (i 1) :=
  funext fun a => Fin.ext (by match a with | ⟨0, _⟩ => rfl | ⟨1, _⟩ => rfl)
theorem l47 (i : S100000x64.Idx) (k : Fin 128) : lidx_main_v47 i k = ix2 (i 0) k :=
  funext fun a => Fin.ext (by match a with | ⟨0, _⟩ => rfl | ⟨1, _⟩ => rfl)
theorem r47 (i : S100000x64.Idx) (k : Fin 128) : ridx_main_v47 i k = ix2 k (i 1) :=
  funext fun a => Fin.ext (by match a with | ⟨0, _⟩ => rfl | ⟨1, _⟩ => rfl)
theorem l52 (i : S100000x64.Idx) (k : Fin 128) : lidx_main_v52 i k = ix2 (i 0) k :=
  funext fun a => Fin.ext (by match a with | ⟨0, _⟩ => rfl | ⟨1, _⟩ => rfl)
theorem r52 (i : S100000x64.Idx) (k : Fin 128) : ridx_main_v52 i k = ix2 k (i 1) :=
  funext fun a => Fin.ext (by match a with | ⟨0, _⟩ => rfl | ⟨1, _⟩ => rfl)
theorem l55 (i : S100000x128.Idx) (k : Fin 64) : lidx_main_v55 i k = ix2 (i 0) k :=
  funext fun a => Fin.ext (by match a with | ⟨0, _⟩ => rfl | ⟨1, _⟩ => rfl)
theorem r55 (i : S100000x128.Idx) (k : Fin 64) : ridx_main_v55 i k = ix2 k (i 1) :=
  funext fun a => Fin.ext (by match a with | ⟨0, _⟩ => rfl | ⟨1, _⟩ => rfl)
theorem b28 (i : S100000x128.Idx) : idx_main_v27 (idx_main_v28 i) = ix1 (i 1) :=
  funext fun a => Fin.ext (by match a with | ⟨0, _⟩ => rfl)
theorem b49 (i : S100000x64.Idx) : idx_main_v48 (idx_main_v49 i) = ix1 (i 1) :=
  funext fun a => Fin.ext (by match a with | ⟨0, _⟩ => rfl)
theorem b57 (i : S100000x128.Idx) : idx_main_v56 (idx_main_v57 i) = ix1 (i 1) :=
  funext fun a => Fin.ext (by match a with | ⟨0, _⟩ => rfl)

/-! ## The three stages -/

/-- The first layer's output is `relu (conv A₁ x W1lᵀ b1 W1rᵀ)`. -/
theorem hidden_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v33 (F := Ideal) x0 x1 x2 x3 x4
      = Sage.relu (Sage.conv (R := 100000) (K := 128) (D := 128) (val_main_v24 (F := Ideal) x0 x1) x0 (val_main_v25 (F := Ideal) x2) x3 (val_main_v30 (F := Ideal) x4)) := by
  funext i
  rw [val_main_v33_apply, val_main_v32_apply, val_main_v29_apply, val_main_v26_apply, val_main_v28_apply, val_main_v27_apply,
    val_main_v31_apply, val_main_call0_v0_apply, val_main_call0_cst_apply]
  simp only [l26, r26, l31, r31, b28]
  rfl

/-- The latent code is `conv A₂ h W2lᵀ b2 W2rᵀ`. -/
theorem latent_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal)) :
    val_main_v53 (F := Ideal) x0 x1 x2 x3 x4 x5 x6 x7
      = Sage.conv (R := 100000) (K := 128) (D := 64) (val_main_v45 (F := Ideal) x0 x1 x2 x3 x4) (val_main_v33 (F := Ideal) x0 x1 x2 x3 x4)
          (val_main_v46 (F := Ideal) x5) x6 (val_main_v51 (F := Ideal) x7) := by
  funext i
  rw [val_main_v53_apply, val_main_v50_apply, val_main_v47_apply, val_main_v49_apply, val_main_v48_apply, val_main_v52_apply]
  simp only [l47, r47, l52, r52, b49]
  rfl

/-- The reconstruction is `dec z Wdecᵀ bdec`. -/
theorem recon_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S64x128, .f32⟩ : BufTy).Contents (Elt Ideal)) (x6 : (⟨S64, .f32⟩ : BufTy).Contents (Elt Ideal)) (x7 : (⟨S64x128, .f32⟩ : BufTy).Contents (Elt Ideal)) (x8 : (⟨S128x64, .f32⟩ : BufTy).Contents (Elt Ideal)) (x9 : (⟨S128, .f32⟩ : BufTy).Contents (Elt Ideal)) :
    val_main_v58 (F := Ideal) x0 x1 x2 x3 x4 x5 x6 x7 x8 x9
      = Sage.dec (R := 100000) (K := 64) (D := 128) (val_main_v53 (F := Ideal) x0 x1 x2 x3 x4 x5 x6 x7) (val_main_v54 (F := Ideal) x8) x9 := by
  funext i
  rw [val_main_v58_apply, val_main_v55_apply, val_main_v57_apply, val_main_v56_apply]
  simp only [l55, r55, b57]
  rfl

end Cert.ReferenceIdeal.Layers

end
-- ==== Proof.Bridge.lean ====
/-
  The two result arrays of the idealized kernel program, as the reference's own functions of the launch arrays.

  Follow the contents of the buffers through the program's four stretches.  After the first host stretch the
  first grid finds the first mean aggregation, the node features, the two transposed weights and the bias, each
  the reference's stage of the launch arrays; so the array it writes, relu (conv …) of them, is the reference's
  hidden layer `h`.  The second host stretch aggregates that array along the same edges with the same inverse
  degrees (all left untouched by the first grid), which is the reference's second aggregation, and transposes the
  remaining weights; so the second grid writes  conv …  = the reference's latent code  and  dec …  = the
  reference's reconstruction.
-/
import proofs.«102457_j12575664242837_1_alg».proof.Proof.Gen.KernelIdeal.Frame
import proofs.«102457_j12575664242837_1_alg».proof.Proof.Layer1
import proofs.«102457_j12575664242837_1_alg».proof.Proof.Layer2
import proofs.«102457_j12575664242837_1_alg».proof.Proof.HostChain
import proofs.«102457_j12575664242837_1_alg».proof.Proof.RefLayers

set_option maxRecDepth 16384

noncomputable section

namespace Cert.KernelIdeal.Bridge

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## What the first grid finds -/

theorem first_agg : V1 m ρ c main_v24 = Cert.ReferenceIdeal.Read.val_main_v24 (F := Ideal) (m ((c.tc : Thread nD τ).loc main_arg0)) (m ((c.tc : Thread nD τ).loc main_arg1)) := Host.before_agg (W0 m ρ c)
theorem first_x : V1 m ρ c main_arg0 = (m ((c.tc : Thread nD τ).loc main_arg0)) := Host.before_arg0 (W0 m ρ c)
theorem first_wl : V1 m ρ c main_v25 = Cert.ReferenceIdeal.Read.val_main_v25 (F := Ideal) (m ((c.tc : Thread nD τ).loc main_arg2)) := Host.before_wl (W0 m ρ c)
theorem first_b : V1 m ρ c main_arg3 = (m ((c.tc : Thread nD τ).loc main_arg3)) := Host.before_arg3 (W0 m ρ c)
theorem first_wr : V1 m ρ c main_v26 = Cert.ReferenceIdeal.Read.val_main_v30 (F := Ideal) (m ((c.tc : Thread nD τ).loc main_arg4)) := Host.before_wr (W0 m ρ c)

/-! ## What the first grid leaves -/

/-- The first grid's output array is the reference's hidden layer. -/
theorem hidden : W2 m ρ c (Proc.devRef .tc main_v27) = Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ((Layer1.final (V1 m ρ) c).trans ?_)
  unfold Layer1.out
  rw [first_agg, first_x, first_wl, first_b, first_wr]
  exact (Cert.ReferenceIdeal.Layers.hidden_eq _ _ _ _ _).symm

/-- The edge sources, the edge destinations and the inverse degrees are not the first grid's to write. -/
theorem kept_src : W2 m ρ c (Proc.devRef .tc main_v1) = Cert.ReferenceIdeal.Read.val_main_v1 (F := Ideal) (m ((c.tc : Thread nD τ).loc main_arg1)) :=
  (W2_of_ne m ρ c main_v1 (by decide)).trans (Host.before_src (W0 m ρ c))
theorem kept_dst : W2 m ρ c (Proc.devRef .tc main_v3) = Cert.ReferenceIdeal.Read.val_main_v3 (F := Ideal) (m ((c.tc : Thread nD τ).loc main_arg1)) :=
  (W2_of_ne m ρ c main_v3 (by decide)).trans (Host.before_dst (W0 m ρ c))
theorem kept_dinv : W2 m ρ c (Proc.devRef .tc main_v12) = Cert.ReferenceIdeal.Read.val_main_v12 (F := Ideal) (m ((c.tc : Thread nD τ).loc main_arg1)) :=
  (W2_of_ne m ρ c main_v12 (by decide)).trans (Host.before_dinv (W0 m ρ c))
theorem kept_arg5 : W2 m ρ c (Proc.devRef .tc main_arg5) = (m ((c.tc : Thread nD τ).loc main_arg5)) :=
  (W2_of_ne m ρ c main_arg5 (by decide)).trans (Host.before_arg5 (W0 m ρ c))
theorem kept_arg6 : W2 m ρ c (Proc.devRef .tc main_arg6) = (m ((c.tc : Thread nD τ).loc main_arg6)) :=
  (W2_of_ne m ρ c main_arg6 (by decide)).trans (Host.before_arg6 (W0 m ρ c))
theorem kept_arg7 : W2 m ρ c (Proc.devRef .tc main_arg7) = (m ((c.tc : Thread nD τ).loc main_arg7)) :=
  (W2_of_ne m ρ c main_arg7 (by decide)).trans (Host.before_arg7 (W0 m ρ c))
theorem kept_arg8 : W2 m ρ c (Proc.devRef .tc main_arg8) = (m ((c.tc : Thread nD τ).loc main_arg8)) :=
  (W2_of_ne m ρ c main_arg8 (by decide)).trans (Host.before_arg8 (W0 m ρ c))
theorem kept_arg9 : W2 m ρ c (Proc.devRef .tc main_arg9) = (m ((c.tc : Thread nD τ).loc main_arg9)) :=
  (W2_of_ne m ρ c main_arg9 (by decide)).trans (Host.before_arg9 (W0 m ρ c))

/-! ## What the second grid finds -/

theorem second_agg : V3 m ρ c main_v39 = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (Host.between_agg (W2 m ρ c)).trans ?_
  rw [hidden, kept_src, kept_dst, kept_dinv]
  exact (Host.ref_agg2 _ _ _ _ _).symm
theorem second_h : V3 m ρ c main_v27 = Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (Host.between_h (W2 m ρ c)).trans (hidden m ρ c)
theorem second_wl : V3 m ρ c main_v40 = Cert.ReferenceIdeal.Read.val_main_v46 (F := Ideal) (m ((c.tc : Thread nD τ).loc main_arg5)) :=
  (Host.between_wl (W2 m ρ c)).trans (congrArg _ (kept_arg5 m ρ c))
theorem second_b : V3 m ρ c main_arg6 = (m ((c.tc : Thread nD τ).loc main_arg6)) :=
  (Host.between_arg6 (W2 m ρ c)).trans (kept_arg6 m ρ c)
theorem second_wr : V3 m ρ c main_v41 = Cert.ReferenceIdeal.Read.val_main_v51 (F := Ideal) (m ((c.tc : Thread nD τ).loc main_arg7)) :=
  (Host.between_wr (W2 m ρ c)).trans (congrArg _ (kept_arg7 m ρ c))
theorem second_wd : V3 m ρ c main_v42 = Cert.ReferenceIdeal.Read.val_main_v54 (F := Ideal) (m ((c.tc : Thread nD τ).loc main_arg8)) :=
  (Host.between_wd (W2 m ρ c)).trans (congrArg _ (kept_arg8 m ρ c))
theorem second_bd : V3 m ρ c main_arg9 = (m ((c.tc : Thread nD τ).loc main_arg9)) :=
  (Host.between_arg9 (W2 m ρ c)).trans (kept_arg9 m ρ c)

/-! ## What the second grid leaves: the results -/

/-- The latent code's array ends at the reference's latent code of the launch arrays. -/
theorem latent_out : W4 m ρ c (Proc.devRef .tc main_v43_0) = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 7).trans ((Layer2.final_latent (V3 m ρ) c).trans ?_)
  unfold Layer2.latent
  rw [second_agg, second_h, second_wl, second_b, second_wr]
  exact (Cert.ReferenceIdeal.Layers.latent_eq _ _ _ _ _ _ _ _).symm

/-- The reconstruction's array ends at the reference's reconstruction of the launch arrays. -/
theorem recon_out : W4 m ρ c (Proc.devRef .tc main_v43_1) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_arr m ρ c 8).trans ((Layer2.final_recon (V3 m ρ) c).trans ?_)
  unfold Layer2.recon Layer2.latent
  rw [second_agg, second_h, second_wl, second_b, second_wr, second_wd, second_bd,
    ← Cert.ReferenceIdeal.Layers.latent_eq]
  exact (Cert.ReferenceIdeal.Layers.recon_eq _ _ _ _ _ _ _ _ _ _).symm

end Cert.KernelIdeal.Bridge

end
-- ==== Proof.lean ====
/-
  A two-layer GraphSAGE autoencoder: the kernel program against its reference, over the extended reals.

  Both programs form the mean over in-neighbours of the node features (a gather along the edge sources, a
  scatter-add into the edge destinations, a division by the in-degree clamped to one) on the host, with the same
  operations on the same operands.  The reference then computes
      h = relu (A₁·W1lᵀ + b1 + x·W1rᵀ),   z = A₂·W2lᵀ + b2 + h·W2rᵀ,   x̂ = z·Wdecᵀ + bdec
  as whole-array products, A₂ the same mean aggregation of `h`.  The kernel computes `h` in a grid of ten blocks
  of 10000 rows, aggregates it on the host, and computes `z` and `x̂` in a second grid of ten row blocks; the
  operands are rounded to bf16 on the way into its products, which changes nothing on extended reals, and each
  product is accumulated into zeros.

  Every entry of `h`, `z`, `x̂` depends on one row of the row-indexed operands, so a block of rows of the result is
  the result of the block of rows (LibDenseRows.lean); a kernel step stores exactly that (KernelBody.lean); the blocks tile
  the arrays (Layer1.lean, Layer2.lean); the host stretches are the reference's own stages (HostChain.lean) and
  the reference's dense stages are the same layer functions (RefLayers.lean); Bridge.lean composes these along
  the program, and KernelRun.lean states the program's run with its results named.  No algebraic law beyond
  0 + s = s is used, so the precondition (finite inputs) is never opened.

  The idealization rewrote no operation of the kernel, so `preserves` asks nothing; the three frames are the
  generated ones (the reference's being its generated run with the results dropped).
-/
import proofs.«102457_j12575664242837_1_alg».proof.Defs
import proofs.«102457_j12575664242837_1_alg».proof.Proof.Gen.Kernel
import proofs.«102457_j12575664242837_1_alg».proof.Proof.Gen.Kernel.Frame
import proofs.«102457_j12575664242837_1_alg».proof.Proof.Gen.KernelIdeal
import proofs.«102457_j12575664242837_1_alg».proof.Proof.Gen.KernelIdeal.Frame
import proofs.«102457_j12575664242837_1_alg».proof.Proof.Gen.ReferenceIdeal
import proofs.«102457_j12575664242837_1_alg».proof.Proof.Gen.ReferenceIdeal.Run
import proofs.«102457_j12575664242837_1_alg».proof.Proof.Gen.ReferenceIdeal.Read
import proofs.«102457_j12575664242837_1_alg».proof.Proof.Gen.Pre_finite_inputs
import proofs.«102457_j12575664242837_1_alg».proof.Proof.KernelRun
import proofs.«102457_j12575664242837_1_alg».proof.Proof.Bridge

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the reference's reconstruction and latent code of the (agreeing) launch arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.OutRun.run_named (F := Ideal) m ρ)
    obtain ⟨h1, h0, ha⟩ := h c
    exact ⟨h1.trans (Cert.KernelIdeal.Bridge.recon_out m ρ c), h0.trans (Cert.KernelIdeal.Bridge.latent_out m ρ c), ha⟩
  · refine (θ_run Cert.ReferenceIdeal.defs _ _).mono (fun r h c => ?_) (Cert.ReferenceIdeal.Value.run (F := Ideal) m' ρ')
    obtain ⟨h58, h53, ha⟩ := h c
    obtain ⟨g0, g1, g2, g3, g4, g5, g6, g7, g8, g9⟩ := hagree c
    refine ⟨h58.trans ?_, h53.trans ?_, ha⟩
    · rw [Cert.ReferenceIdeal.Read.val_main_v58_eq, g0, g1, g2, g3, g4, g5, g6, g7, g8, g9]
    · rw [Cert.ReferenceIdeal.Read.val_main_v53_eq, g0, g1, g2, g3, g4, g5, g6, g7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
